-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S740000, .i32⟩
  | .hbm, ⟨32, _⟩ => ⟨S740000, .i1⟩
  | .hbm, ⟨33, _⟩ => ⟨S_, .i32⟩
  | .hbm, ⟨34, _⟩ => ⟨S740000, .i32⟩
  | .hbm, ⟨35, _⟩ => ⟨S740000, .i32⟩
  | .hbm, ⟨36, _⟩ => ⟨S740000, .i32⟩
  | .hbm, ⟨37, _⟩ => ⟨S740000x1, .i32⟩
  | .hbm, ⟨38, _⟩ => ⟨S740000, .f32⟩
  | .hbm, ⟨39, _⟩ => ⟨S_, .i32⟩
  | .hbm, ⟨40, _⟩ => ⟨S740000, .i32⟩
  | .hbm, ⟨41, _⟩ => ⟨S740000, .i1⟩
  | .hbm, ⟨42, _⟩ => ⟨S_, .i32⟩
  | .hbm, ⟨43, _⟩ => ⟨S740000, .i32⟩
  | .hbm, ⟨44, _⟩ => ⟨S740000, .i32⟩
  | .hbm, ⟨45, _⟩ => ⟨S740000, .i32⟩
  | .hbm, ⟨46, _⟩ => ⟨S740000x1, .i32⟩
  | .hbm, ⟨47, _⟩ => ⟨S740000, .f32⟩
  | .hbm, ⟨48, _⟩ => ⟨S740000, .f32⟩
  | .hbm, ⟨49, _⟩ => ⟨S100000x128, .f32⟩
  | .hbm, ⟨50, _⟩ => ⟨S_, .i32⟩
  | .hbm, ⟨51, _⟩ => ⟨S740000, .i32⟩
  | .hbm, ⟨52, _⟩ => ⟨S740000, .i1⟩
  | .hbm, ⟨53, _⟩ => ⟨S_, .i32⟩
  | .hbm, ⟨54, _⟩ => ⟨S740000, .i32⟩
  | .hbm, ⟨55, _⟩ => ⟨S740000, .i32⟩
  | .hbm, ⟨56, _⟩ => ⟨S740000, .i32⟩
  | .hbm, ⟨57, _⟩ => ⟨S740000x1, .i32⟩
  | .hbm, ⟨58, _⟩ => ⟨S740000x128, .f32⟩
  | .hbm, ⟨59, _⟩ => ⟨S740000x1, .f32⟩
  | .hbm, ⟨60, _⟩ => ⟨S740000x128, .f32⟩
  | .hbm, ⟨61, _⟩ => ⟨S740000x128, .f32⟩
  | .hbm, ⟨62, _⟩ => ⟨S_, .f32⟩
  | .hbm, ⟨63, _⟩ => ⟨S100000x128, .f32⟩
  | .hbm, ⟨64, _⟩ => ⟨S740000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S740000, .i32⟩
  | .hbm, ⟨71, _⟩ => ⟨S740000, .i1⟩
  | .hbm, ⟨72, _⟩ => ⟨S_, .i32⟩
  | .hbm, ⟨73, _⟩ => ⟨S740000, .i32⟩
  | .hbm, ⟨74, _⟩ => ⟨S740000, .i32⟩
  | .hbm, ⟨75, _⟩ => ⟨S740000, .i32⟩
  | .hbm, ⟨76, _⟩ => ⟨S740000x1, .i32⟩
  | .hbm, ⟨77, _⟩ => ⟨S740000x128, .f32⟩
  | .hbm, ⟨78, _⟩ => ⟨S740000x1, .f32⟩
  | .hbm, ⟨79, _⟩ => ⟨S740000x128, .f32⟩
  | .hbm, ⟨80, _⟩ => ⟨S740000x128, .f32⟩
  | .hbm, ⟨81, _⟩ => ⟨S_, .f32⟩
  | .hbm, ⟨82, _⟩ => ⟨S100000x128, .f32⟩
  | .hbm, ⟨83, _⟩ => ⟨S740000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000, .f32⟩
  | .hbm, ⟨49, _⟩ => ⟨S740000, .f32⟩
  | .hbm, ⟨50, _⟩ => ⟨S_, .i32⟩
  | .hbm, ⟨51, _⟩ => ⟨S740000, .i32⟩
  | .hbm, ⟨52, _⟩ => ⟨S740000, .i1⟩
  | .hbm, ⟨53, _⟩ => ⟨S_, .i32⟩
  | .hbm, ⟨54, _⟩ => ⟨S740000, .i32⟩
  | .hbm, ⟨55, _⟩ => ⟨S740000, .i32⟩
  | .hbm, ⟨56, _⟩ => ⟨S740000, .i32⟩
  | .hbm, ⟨57, _⟩ => ⟨S740000x1, .i32⟩
  | .hbm, ⟨58, _⟩ => ⟨S740000x128, .f32⟩
  | .hbm, ⟨59, _⟩ => ⟨S740000x1, .f32⟩
  | .hbm, ⟨60, _⟩ => ⟨S740000x128, .f32⟩
  | .hbm, ⟨61, _⟩ => ⟨S740000x128, .f32⟩
  | .hbm, ⟨62, _⟩ => ⟨S_, .f32⟩
  | .hbm, ⟨63, _⟩ => ⟨S100000x128, .f32⟩
  | .hbm, ⟨64, _⟩ => ⟨S740000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S740000, .i32⟩
  | .hbm, ⟨75, _⟩ => ⟨S740000, .i1⟩
  | .hbm, ⟨76, _⟩ => ⟨S_, .i32⟩
  | .hbm, ⟨77, _⟩ => ⟨S740000, .i32⟩
  | .hbm, ⟨78, _⟩ => ⟨S740000, .i32⟩
  | .hbm, ⟨79, _⟩ => ⟨S740000, .i32⟩
  | .hbm, ⟨80, _⟩ => ⟨S740000x1, .i32⟩
  | .hbm, ⟨81, _⟩ => ⟨S740000, .f32⟩
  | .hbm, ⟨82, _⟩ => ⟨S_, .i32⟩
  | .hbm, ⟨83, _⟩ => ⟨S740000, .i32⟩
  | .hbm, ⟨84, _⟩ => ⟨S740000, .i1⟩
  | .hbm, ⟨85, _⟩ => ⟨S_, .i32⟩
  | .hbm, ⟨86, _⟩ => ⟨S740000, .i32⟩
  | .hbm, ⟨87, _⟩ => ⟨S740000, .i32⟩
  | .hbm, ⟨88, _⟩ => ⟨S740000, .i32⟩
  | .hbm, ⟨89, _⟩ => ⟨S740000x1, .i32⟩
  | .hbm, ⟨90, _⟩ => ⟨S740000, .f32⟩
  | .hbm, ⟨91, _⟩ => ⟨S740000, .f32⟩
  | .hbm, ⟨92, _⟩ => ⟨S_, .i32⟩
  | .hbm, ⟨93, _⟩ => ⟨S740000, .i32⟩
  | .hbm, ⟨94, _⟩ => ⟨S740000, .i1⟩
  | .hbm, ⟨95, _⟩ => ⟨S_, .i32⟩
  | .hbm, ⟨96, _⟩ => ⟨S740000, .i32⟩
  | .hbm, ⟨97, _⟩ => ⟨S740000, .i32⟩
  | .hbm, ⟨98, _⟩ => ⟨S740000, .i32⟩
  | .hbm, ⟨99, _⟩ => ⟨S740000x1, .i32⟩
  | .hbm, ⟨100, _⟩ => ⟨S740000x128, .f32⟩
  | .hbm, ⟨101, _⟩ => ⟨S740000x1, .f32⟩
  | .hbm, ⟨102, _⟩ => ⟨S740000x128, .f32⟩
  | .hbm, ⟨103, _⟩ => ⟨S740000x128, .f32⟩
  | .hbm, ⟨104, _⟩ => ⟨S_, .f32⟩
  | .hbm, ⟨105, _⟩ => ⟨S100000x128, .f32⟩
  | .hbm, ⟨106, _⟩ => ⟨S740000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  dot_S100000x128_S128x128_S100000x128_1_0_0_1_n_n_wf : DotDims.WF S100000x128 S128x128 S100000x128 [1] [0] [0] [1] [] []
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«173735_j42872363549056_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«173735_j42872363549056_1_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.FirstProduct.lean ====
/-
  The first dense product, read off the run of its region.

  The region walks the node features X (100000 rows of 128) in ten bands of 10000 rows. At each grid point it loads one
  band of X and the whole weight matrix W (128 by 128), narrows both to bf16 — the identity on exact values —, multiplies
  them into a zero accumulator, and stores the 10000 by 128 result as the same band of the output array.

  A band of rows of a matrix product is the product of that band of rows with the right factor: entry (p, q) of X · W is
  the sum over k of X (p, k) · W (k, q), and only row p of X enters it. So what point t writes back is band t of X · W,
  the ten bands cover all 100000 rows, and the output array ends as the whole product X · W, whatever X and W were when
  the region was entered.
-/
import proofs.«173735_j42872363549056_1_alg».proof.Proof.Gen.KernelIdeal.Frame
import proofs.«173735_j42872363549056_1_alg».proof.Proof.LibLayers
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.ValueIdx Cert.Layers Cert.LibMatProd

variable (V : (c : Dev nD) → (b : Ref sig .tc) → Buf (Elt Ideal) ((c : Thread nD τ).loc b))

/-- The body's rectangles start at the origin of their buffers. -/
theorem origin : (![0, 0] : Fin 2 → Nat) = fun _ => 0 := funext fun a => by fin_cases a <;> rfl

/-- What the body stores is the matrix product of the band of rows and the weights it loaded. -/
theorem body_eq (x0 : Vec Ideal S10000x128 .f32) (x1 : Vec Ideal S128x128 .f32) :
    k0_pay1 x0 x1 = matProd (x0 : Mat 10000 128) (x1 : Mat 128 128) :=
  matmul_eq dot_S10000x128_S128x128_S10000x128_1_0_0_1_n_n rfl rfl rfl rfl rfl rfl x0 x1 bitsLt_bf16_f32

/-- The index maps over the ten grid points: the features' band and the output's band move together down the rows, the
    weights stay at their one block, and no block leaves the first column of blocks. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten bands is some grid point's. -/
theorem index_onto : ∀ q : Fin 10, ∃ t : Fin cfg0.N, win0_2.index t = ![q.val, 0] :=
  (by decide +kernel : ∀ q : Fin 10, ∃ t : Fin grid0.N, win0_2.index t = ![q.val, 0])

/-- What point t writes back is band t of the product of the features and the weights as the region finds them. -/
theorem flushed_eq (c : Dev nD) (t : Fin cfg0.N) :
    (dat0 V c).flushed 2 t
      = ((cfg0.win 2).blk t).view.read (Elt Ideal) (matProd (V c main_arg0 : Mat 100000 128) (V c main_arg2 : Mat 128 128)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  rw [body_eq]
  obtain ⟨e0, e1, e2, e3, e4, e5⟩ := index_facts t
  funext j
  show matProd (iblk0 V c 0 t : Mat 10000 128) (iblk0 V c 1 t : Mat 128 128) j
    = matProd (V c main_arg0 : Mat 100000 128) (V c main_arg2 : Mat 128 128) (((cfg0.win 2).blk t).view.emb j)
  refine matProd_rows (V c main_arg0 : Mat 100000 128) (V c main_arg2 : Mat 128 128) (iblk0 V c 0 t) (iblk0 V c 1 t)
    (win0_2.index t (0 : Fin 2) * 10000) ?_ ?_ j _ ?_ ?_
  · intro p k hp
    show V c main_arg0 (((cfg0.win 0).blk t).view.emb (ix2 p k)) = V c main_arg0 (ix2 ⟨win0_2.index t (0 : Fin 2) * 10000 + p.val, hp⟩ k)
    refine congrArg (V c main_arg0) (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · intro z
    show V c main_arg2 (((cfg0.win 1).blk t).view.emb z) = V c main_arg2 z
    refine congrArg (V c main_arg2) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · show win0_2.index t (0 : Fin 2) * 10000 + 1 * (j 0).val = win0_2.index t (0 : Fin 2) * 10000 + (j 0).val; omega
  · show win0_2.index t (1 : Fin 2) * 128 + 1 * (j 1).val = (j 1).val; omega

/-- An index of the output array is in point t's band iff each coordinate is in the band's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Every index of the output array lies in some point's band: row r is in band r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the features and the weights as the region found them. -/
theorem array_eq (c : Dev nD) :
    (dat0 V c).arrAt 2 cfg0.N = matProd (V c main_arg0 : Mat 100000 128) (V c main_arg2 : Mat 128 128) :=
  (dat0 V c).arrAt_eq_of_cover 2 _ (fun t _ => flushed_eq V c t) cover

end Cert.KernelIdeal.FirstProduct

end
-- ==== Proof.FirstBias.lean ====
/-
  The first layer's bias and rectifier, read off the run of its region.

  The region walks the aggregated features A (100000 rows of 128) in ten bands of 10000 rows. At each grid point it loads
  one band of A and the bias as a one-row matrix R (1 by 128), repeats the row down the band, adds, and takes the larger
  of each entry and zero; it stores the result as the same band of the output array.

  Adding a row to every row, and clamping below at zero, act on each row by itself. So what point t writes back is band t
  of clamp (A + R on every row), the ten bands cover every row, and the output array ends as that function of the
  arrays the region found.
-/
import proofs.«173735_j42872363549056_1_alg».proof.Proof.Gen.KernelIdeal.Frame
import proofs.«173735_j42872363549056_1_alg».proof.Proof.LibLayers
import Idealize.ShloMosaic.Lib.Pipeline.Value
import Idealize.ShloMosaic.Lib.ValueIdx

set_option maxRecDepth 16384

noncomputable section

namespace Cert.KernelIdeal.FirstBias

open Cert.KernelIdeal Cert.KernelIdeal.Gen Idealize.ShloMosaic Idealize.ShloMosaic.TcCoe Idealize.SL.Sem
open Idealize.ShloMosaic.ValueIdx Cert.Layers Cert.LibMatProd

variable (V : (c : Dev nD) → (b : Ref sig .tc) → Buf (Elt Ideal) ((c : Thread nD τ).loc b))

/-- The body's rectangles start at the origin of their buffers. -/
theorem origin : (![0, 0] : Fin 2 → Nat) = fun _ => 0 := funext fun a => by fin_cases a <;> rfl

/-- What the body stores, as a function of the band of rows and the one-row matrix it loaded. -/
theorem body_eq (x0 : Vec Ideal S10000x128 .f32) (x1 : Vec Ideal S1x128 .f32) :
    k1_pay1 x0 x1 = clamp (addRow (x0 : Mat 10000 128) (x1 : Mat 1 128)) := by
  show maximumf (addf (shapeCast S10000x128 x0 shapeCasts_S10000x128_S10000x128)
      (broadcastTo S10000x128 (shapeCast S1x128 (shapeCast S1x128 x1 shapeCasts_S1x128_S1x128) shapeCasts_S1x128_S1x128) broadcasts_S1x128_S10000x128))
      (broadcast S10000x128 (Scalar.ofBits (F := Ideal) .f32 0x00000000#32)) = _
  rw [shapeCast_self x0, shapeCast_self x1, unit_addRow, unit_clamp]

/-- The stage acts row by row: applied to a band of T rows of A starting at row s, with the same one-row matrix, its
    entry at y is the whole array's entry at the index whose row is s plus y's row and whose column is y's. -/
theorem rows_eq {T : ℕ} (A : Mat 100000 128) (R : Mat 1 128) (a : Mat T 128) (r : Mat 1 128) (s : ℕ) (h : s + T ≤ 100000)
    (ha : ∀ y, a y = band T s h A y) (hr : ∀ z, r z = R z)
    (y : (⟨2, ![T, 128]⟩ : Shape).Idx) (i : (⟨2, ![100000, 128]⟩ : Shape).Idx)
    (hi0 : (i 0).val = s + (y 0).val) (hi1 : (i 1).val = (y 1).val) :
    (clamp (addRow (a) (r))) y = (clamp (addRow A R)) i := by
  have e1 : a = band T s h A := funext ha
  have e2 : r = R := funext hr
  subst e1 e2
  exact band_apply T s h (clamp (addRow A r)) y i hi0 hi1

/-- The index maps over the ten grid points: the input's band and the output's band move together down the rows, the
    one-row matrix stays at its one block, and no block leaves the first column of blocks. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten bands is some grid point's. -/
theorem index_onto : ∀ q : Fin 10, ∃ t : Fin cfg1.N, win1_2.index t = ![q.val, 0] :=
  (by decide +kernel : ∀ q : Fin 10, ∃ t : Fin grid1.N, win1_2.index t = ![q.val, 0])

/-- What point t writes back is band t of the stage applied to the arrays as the region finds them. -/
theorem flushed_eq (c : Dev nD) (t : Fin cfg1.N) :
    (dat1 V c).flushed 2 t
      = ((cfg1.win 2).blk t).view.read (Elt Ideal) (clamp (addRow (V c main_v45 : Mat 100000 128) (V c main_v46 : Mat 1 128))) := by
  show (cfg1.win 2).cut (grid1.coords t) ((dat1 V c).after 2 t) = _
  rw [after1_2]
  unfold out1_2
  rw [View.canon_unit_zero origin]
  simp only [View.ld_unit_zero (S := S10000x128) origin, View.ld_unit_zero (S := S1x128) origin]
  rw [body_eq]
  obtain ⟨e0, e1, e2, e3, e4, e5⟩ := index_facts t
  funext j
  show (clamp (addRow (iblk1 V c 0 t : Mat 10000 128) (iblk1 V c 1 t : Mat 1 128))) j
    = (clamp (addRow (V c main_v45 : Mat 100000 128) (V c main_v46 : Mat 1 128))) (((cfg1.win 2).blk t).view.emb j)
  refine rows_eq (V c main_v45 : Mat 100000 128) (V c main_v46 : Mat 1 128) (iblk1 V c 0 t) (iblk1 V c 1 t)
    (win1_2.index t (0 : Fin 2) * 10000) (by omega) ?_ ?_ j _ ?_ ?_
  · intro y
    show V c main_v45 (((cfg1.win 0).blk t).view.emb y)
      = V c main_v45 (ix2 ⟨win1_2.index t (0 : Fin 2) * 10000 + (y 0).val, _⟩ (y 1))
    refine congrArg (V c main_v45) (funext fun a => Fin.ext ?_)
    match a with
    | ⟨0, _⟩ => show win1_0.index t (0 : Fin 2) * 10000 + 1 * (y 0).val = win1_2.index t (0 : Fin 2) * 10000 + (y 0).val; omega
    | ⟨1, _⟩ => show win1_0.index t (1 : Fin 2) * 128 + 1 * (y 1).val = (y 1).val; omega
  · intro z
    show V c main_v46 (((cfg1.win 1).blk t).view.emb z) = V c main_v46 z
    refine congrArg (V c main_v46) (funext fun a => Fin.ext ?_)
    match a with
    | ⟨0, _⟩ => show win1_1.index t (0 : Fin 2) * 1 + 1 * (z 0).val = (z 0).val; omega
    | ⟨1, _⟩ => show win1_1.index t (1 : Fin 2) * 128 + 1 * (z 1).val = (z 1).val; omega
  · show win1_2.index t (0 : Fin 2) * 10000 + 1 * (j 0).val = win1_2.index t (0 : Fin 2) * 10000 + (j 0).val; omega
  · show win1_2.index t (1 : Fin 2) * 128 + 1 * (j 1).val = (j 1).val; omega

/-- An index of the output array is in point t's band iff each coordinate is in the band's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- Every index of the output array lies in some point's band: row r is in band r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the stage applied to the arrays as the region found them. -/
theorem array_eq (c : Dev nD) :
    (dat1 V c).arrAt 2 cfg1.N = clamp (addRow (V c main_v45 : Mat 100000 128) (V c main_v46 : Mat 1 128)) :=
  (dat1 V c).arrAt_eq_of_cover 2 _ (fun t _ => flushed_eq V c t) cover

end Cert.KernelIdeal.FirstBias

end
-- ==== Proof.SecondProduct.lean ====
/-
  The second dense product, read off the run of its region.

  As for the first product, the region walks its left factor H (100000 rows of 128, the first layer's output) in ten
  bands of 10000 rows; at each grid point it loads one band of H and the whole second weight matrix W (128 by 128),
  passes the band through a re-lay that changes nothing, narrows both to bf16 — the identity on exact values —,
  multiplies them into a zero accumulator and stores the result as the same band of the output array.

  Only row p of H enters entry (p, q) of H · W, so point t writes back band t of H · W, the ten bands cover every row,
  and the output array ends as the whole product H · W of the arrays the region found.
-/
import proofs.«173735_j42872363549056_1_alg».proof.Proof.Gen.KernelIdeal.Frame
import proofs.«173735_j42872363549056_1_alg».proof.Proof.LibLayers
import Idealize.ShloMosaic.Lib.Pipeline.Value
import Idealize.ShloMosaic.Lib.ValueIdx

set_option maxRecDepth 16384

noncomputable section

namespace Cert.KernelIdeal.SecondProduct

open Cert.KernelIdeal Cert.KernelIdeal.Gen Idealize.ShloMosaic Idealize.ShloMosaic.TcCoe Idealize.SL.Sem
open Idealize.ShloMosaic.ValueIdx Cert.Layers Cert.LibMatProd

variable (V : (c : Dev nD) → (b : Ref sig .tc) → Buf (Elt Ideal) ((c : Thread nD τ).loc b))

/-- The body's rectangles start at the origin of their buffers. -/
theorem origin : (![0, 0] : Fin 2 → Nat) = fun _ => 0 := funext fun a => by fin_cases a <;> rfl

/-- What the body stores is the matrix product of the band of rows and the weights it loaded. -/
theorem body_eq (x0 : Vec Ideal S10000x128 .f32) (x1 : Vec Ideal S128x128 .f32) :
    k2_pay1 x0 x1 = matProd (x0 : Mat 10000 128) (x1 : Mat 128 128) := by
  show matmul (F := Ideal) dot_S10000x128_S128x128_S10000x128_1_0_0_1_n_n none
      (truncf (F := Ideal) .bf16 (shapeCast S10000x128 (x0 : FVec Ideal S10000x128 .f32) shapeCasts_S10000x128_S10000x128) bitsLt_bf16_f32)
      (truncf (F := Ideal) .bf16 (x1 : FVec Ideal S128x128 .f32) bitsLt_bf16_f32)
      (constant (F := Ideal) S10000x128 .f32 0x00000000#32) = _
  rw [shapeCast_self x0]
  exact matmul_eq dot_S10000x128_S128x128_S10000x128_1_0_0_1_n_n rfl rfl rfl rfl rfl rfl x0 x1 bitsLt_bf16_f32

/-- The index maps over the ten grid points: the left factor's band and the output's band move together down the rows,
    the weights stay at their one block, and no block leaves the first column of blocks. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten bands is some grid point's. -/
theorem index_onto : ∀ q : Fin 10, ∃ t : Fin cfg2.N, win2_2.index t = ![q.val, 0] :=
  (by decide +kernel : ∀ q : Fin 10, ∃ t : Fin grid2.N, win2_2.index t = ![q.val, 0])

/-- What point t writes back is band t of the product of the left factor and the weights as the region finds them. -/
theorem flushed_eq (c : Dev nD) (t : Fin cfg2.N) :
    (dat2 V c).flushed 2 t
      = ((cfg2.win 2).blk t).view.read (Elt Ideal) (matProd (V c main_v47 : Mat 100000 128) (V c main_arg4 : Mat 128 128)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x128) origin]
  rw [body_eq]
  obtain ⟨e0, e1, e2, e3, e4, e5⟩ := index_facts t
  funext j
  show matProd (iblk2 V c 0 t : Mat 10000 128) (iblk2 V c 1 t : Mat 128 128) j
    = matProd (V c main_v47 : Mat 100000 128) (V c main_arg4 : Mat 128 128) (((cfg2.win 2).blk t).view.emb j)
  refine matProd_rows (V c main_v47 : Mat 100000 128) (V c main_arg4 : Mat 128 128) (iblk2 V c 0 t) (iblk2 V c 1 t)
    (win2_2.index t (0 : Fin 2) * 10000) ?_ ?_ j _ ?_ ?_
  · intro p k hp
    show V c main_v47 (((cfg2.win 0).blk t).view.emb (ix2 p k)) = V c main_v47 (ix2 ⟨win2_2.index t (0 : Fin 2) * 10000 + p.val, hp⟩ k)
    refine congrArg (V c main_v47) (funext fun a => Fin.ext ?_)
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · intro z
    show V c main_arg4 (((cfg2.win 1).blk t).view.emb z) = V c main_arg4 z
    refine congrArg (V c main_arg4) (funext fun a => Fin.ext ?_)
    match a with
    | ⟨0, _⟩ => show win2_1.index t (0 : Fin 2) * 128 + 1 * (z 0).val = (z 0).val; omega
    | ⟨1, _⟩ => show win2_1.index t (1 : Fin 2) * 128 + 1 * (z 1).val = (z 1).val; omega
  · show win2_2.index t (0 : Fin 2) * 10000 + 1 * (j 0).val = win2_2.index t (0 : Fin 2) * 10000 + (j 0).val; omega
  · show win2_2.index t (1 : Fin 2) * 128 + 1 * (j 1).val = (j 1).val; omega

/-- An index of the output array is in point t's band iff each coordinate is in the band's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v48).slice (win2_2.rect t)).set ↔ _
  rw [View.set_slice_whole, Rect.mem_set_unit]
  exact Iff.rfl

/-- Every index of the output array lies in some point's band: row r is in band r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the product of the left factor and the weights as the region found them. -/
theorem array_eq (c : Dev nD) :
    (dat2 V c).arrAt 2 cfg2.N = matProd (V c main_v47 : Mat 100000 128) (V c main_arg4 : Mat 128 128) :=
  (dat2 V c).arrAt_eq_of_cover 2 _ (fun t _ => flushed_eq V c t) cover

end Cert.KernelIdeal.SecondProduct

end
-- ==== Proof.SecondBias.lean ====
/-
  The second layer's bias, read off the run of its region.

  The region walks the aggregated features A (100000 rows of 128) in ten bands of 10000 rows. At each grid point it loads
  one band of A and the bias as a one-row matrix R (1 by 128), repeats the row down the band and adds; it stores the result
  as the same band of the output array. The second layer has no rectifier.

  Adding a row to every row acts on each row by itself. So what point t writes back is band t of A + R on every row, the
  ten bands cover every row, and the output array ends as that function of the arrays the region found.
-/
import proofs.«173735_j42872363549056_1_alg».proof.Proof.Gen.KernelIdeal.Frame
import proofs.«173735_j42872363549056_1_alg».proof.Proof.LibLayers
import Idealize.ShloMosaic.Lib.Pipeline.Value
import Idealize.ShloMosaic.Lib.ValueIdx

set_option maxRecDepth 16384

noncomputable section

namespace Cert.KernelIdeal.SecondBias

open Cert.KernelIdeal Cert.KernelIdeal.Gen Idealize.ShloMosaic Idealize.ShloMosaic.TcCoe Idealize.SL.Sem
open Idealize.ShloMosaic.ValueIdx Cert.Layers Cert.LibMatProd

variable (V : (c : Dev nD) → (b : Ref sig .tc) → Buf (Elt Ideal) ((c : Thread nD τ).loc b))

/-- The body's rectangles start at the origin of their buffers. -/
theorem origin : (![0, 0] : Fin 2 → Nat) = fun _ => 0 := funext fun a => by fin_cases a <;> rfl

/-- What the body stores, as a function of the band of rows and the one-row matrix it loaded. -/
theorem body_eq (x0 : Vec Ideal S10000x128 .f32) (x1 : Vec Ideal S1x128 .f32) :
    k3_pay1 x0 x1 = addRow (x0 : Mat 10000 128) (x1 : Mat 1 128) := by
  show addf (F := Ideal) (shapeCast S10000x128 (x0 : FVec Ideal S10000x128 .f32) shapeCasts_S10000x128_S10000x128)
      (broadcastTo S10000x128 (shapeCast S1x128 (shapeCast S1x128 (x1 : FVec Ideal S1x128 .f32) shapeCasts_S1x128_S1x128) shapeCasts_S1x128_S1x128)
        broadcasts_S1x128_S10000x128) = _
  rw [shapeCast_self x0, shapeCast_self x1, unit_addRow]

/-- The stage acts row by row: applied to a band of T rows of A starting at row s, with the same one-row matrix, its
    entry at y is the whole array's entry at the index whose row is s plus y's row and whose column is y's. -/
theorem rows_eq {T : ℕ} (A : Mat 100000 128) (R : Mat 1 128) (a : Mat T 128) (r : Mat 1 128) (s : ℕ) (h : s + T ≤ 100000)
    (ha : ∀ y, a y = band T s h A y) (hr : ∀ z, r z = R z)
    (y : (⟨2, ![T, 128]⟩ : Shape).Idx) (i : (⟨2, ![100000, 128]⟩ : Shape).Idx)
    (hi0 : (i 0).val = s + (y 0).val) (hi1 : (i 1).val = (y 1).val) :
    (addRow (a) (r)) y = (addRow A R) i := by
  have e1 : a = band T s h A := funext ha
  have e2 : r = R := funext hr
  subst e1 e2
  exact band_apply T s h (addRow A r) y i hi0 hi1

/-- The index maps over the ten grid points: the input's band and the output's band move together down the rows, the
    one-row matrix stays at its one block, and no block leaves the first column of blocks. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten bands is some grid point's. -/
theorem index_onto : ∀ q : Fin 10, ∃ t : Fin cfg3.N, win3_2.index t = ![q.val, 0] :=
  (by decide +kernel : ∀ q : Fin 10, ∃ t : Fin grid3.N, win3_2.index t = ![q.val, 0])

/-- What point t writes back is band t of the stage applied to the arrays as the region finds them. -/
theorem flushed_eq (c : Dev nD) (t : Fin cfg3.N) :
    (dat3 V c).flushed 2 t
      = ((cfg3.win 2).blk t).view.read (Elt Ideal) (addRow (V c main_v61 : Mat 100000 128) (V c main_v62 : Mat 1 128)) := by
  show (cfg3.win 2).cut (grid3.coords t) ((dat3 V c).after 2 t) = _
  rw [after3_2]
  unfold out3_2
  rw [View.canon_unit_zero origin]
  simp only [View.ld_unit_zero (S := S10000x128) origin, View.ld_unit_zero (S := S1x128) origin]
  rw [body_eq]
  obtain ⟨e0, e1, e2, e3, e4, e5⟩ := index_facts t
  funext j
  show (addRow (iblk3 V c 0 t : Mat 10000 128) (iblk3 V c 1 t : Mat 1 128)) j
    = (addRow (V c main_v61 : Mat 100000 128) (V c main_v62 : Mat 1 128)) (((cfg3.win 2).blk t).view.emb j)
  refine rows_eq (V c main_v61 : Mat 100000 128) (V c main_v62 : Mat 1 128) (iblk3 V c 0 t) (iblk3 V c 1 t)
    (win3_2.index t (0 : Fin 2) * 10000) (by omega) ?_ ?_ j _ ?_ ?_
  · intro y
    show V c main_v61 (((cfg3.win 0).blk t).view.emb y)
      = V c main_v61 (ix2 ⟨win3_2.index t (0 : Fin 2) * 10000 + (y 0).val, _⟩ (y 1))
    refine congrArg (V c main_v61) (funext fun a => Fin.ext ?_)
    match a with
    | ⟨0, _⟩ => show win3_0.index t (0 : Fin 2) * 10000 + 1 * (y 0).val = win3_2.index t (0 : Fin 2) * 10000 + (y 0).val; omega
    | ⟨1, _⟩ => show win3_0.index t (1 : Fin 2) * 128 + 1 * (y 1).val = (y 1).val; omega
  · intro z
    show V c main_v62 (((cfg3.win 1).blk t).view.emb z) = V c main_v62 z
    refine congrArg (V c main_v62) (funext fun a => Fin.ext ?_)
    match a with
    | ⟨0, _⟩ => show win3_1.index t (0 : Fin 2) * 1 + 1 * (z 0).val = (z 0).val; omega
    | ⟨1, _⟩ => show win3_1.index t (1 : Fin 2) * 128 + 1 * (z 1).val = (z 1).val; omega
  · show win3_2.index t (0 : Fin 2) * 10000 + 1 * (j 0).val = win3_2.index t (0 : Fin 2) * 10000 + (j 0).val; omega
  · show win3_2.index t (1 : Fin 2) * 128 + 1 * (j 1).val = (j 1).val; omega

/-- An index of the output array is in point t's band iff each coordinate is in the band's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v63).slice (win3_2.rect t)).set ↔ _
  rw [View.set_slice_whole, Rect.mem_set_unit]
  exact Iff.rfl

/-- Every index of the output array lies in some point's band: row r is in band r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region: the stage applied to the arrays as the region found them. -/
theorem array_eq (c : Dev nD) :
    (dat3 V c).arrAt 2 cfg3.N = addRow (V c main_v61 : Mat 100000 128) (V c main_v62 : Mat 1 128) :=
  (dat3 V c).arrAt_eq_of_cover 2 _ (fun t _ => flushed_eq V c t) cover

end Cert.KernelIdeal.SecondBias

end
-- ==== Proof.HostOps.lean ====
/-
  The graph convolution's host side, as pure functions of the edge list.

  The edge list is a 2 by 640000 array of node numbers: row 0 the sources, row 1 the targets. A self loop is added for
  each of the 100000 nodes, so there are 740000 edges; `edgeRow` and `edgeCol` are the two rows, each followed by the
  node numbers 0 … 99999. A node number below zero is read as that number plus the node count (`wrap`).

  The degree of a node counts the edges that end in it (a scatter-add of ones into zeros along the targets). Its weight
  is one over the square root of the degree, taken of at least one, where the degree is positive, and zero elsewhere.
  An edge's weight is the product of the weights of its two ends.

  One round of message passing takes node features h (100000 by 128): it gathers, for each edge, the row of h at the
  edge's source, scales it by the edge's weight, and adds it into the row of its target, starting from zeros.

  The two-layer network is then, with X the input features, W1, W2 the weight matrices and b1, b2 the bias vectors,

      round (clamp (round (X · W1) + b1) · W2) + b2,

  a bias added to every row and the clamp taken entry by entry below at zero.
-/
import proofs.«173735_j42872363549056_1_alg».proof.Proof.Gen.KernelIdeal
import proofs.«173735_j42872363549056_1_alg».proof.Proof.LibLayers

noncomputable section

namespace Cert.KernelIdeal.Graph

open Cert.KernelIdeal Cert.KernelIdeal.Gen Idealize.ShloMosaic Cert.Layers Cert.LibMatProd

/-- One node number per edge. -/
abbrev EdgeIdx : Type := (⟨S740000, .i32⟩ : BufTy).Contents (Elt Ideal)
/-- One exact value per edge. -/
abbrev EdgeVal : Type := (⟨S740000, .f32⟩ : BufTy).Contents (Elt Ideal)
/-- The edge list as given: sources in row 0, targets in row 1. -/
abbrev EdgeList : Type := (⟨S2x640000, .i32⟩ : BufTy).Contents (Elt Ideal)
/-- One exact value per node. -/
abbrev NodeVal : Type := (⟨S100000, .f32⟩ : BufTy).Contents (Elt Ideal)

/-- The sources of the given edges, then each node as the source of its own self loop. -/
def edgeRow (e : EdgeList) : EdgeIdx :=
  concatenate S740000 0 [⟨S640000, (shapeCast _ (extractStridedSlice S1x640000 ![0, 0] e slices_S2x640000_S1x640000_0_0) shapeCasts_S1x640000_S640000)⟩, ⟨S100000, (iotaInDim S100000 32 0)⟩] concatenates_S640000_S100000_S740000_d0

/-- The targets of the given edges, then each node as the target of its own self loop. -/
def edgeCol (e : EdgeList) : EdgeIdx :=
  concatenate S740000 0 [⟨S640000, (shapeCast _ (extractStridedSlice S1x640000 ![1, 0] e slices_S2x640000_S1x640000_1_0) shapeCasts_S1x640000_S640000)⟩, ⟨S100000, (iotaInDim S100000 32 0)⟩] concatenates_S640000_S100000_S740000_d0

/-- A node number below zero stands for that number plus the node count. -/
def wrap (v : EdgeIdx) : EdgeIdx :=
  select (cmpi .slt v (broadcastInDim S740000 ![] bcast_S_S740000 (constantI S_ 32 0#32))) (addi v (broadcastInDim S740000 ![] bcast_S_S740000 (constantI S_ 32 100000#32))) v

/-- The degree of each node: ones added into zeros along the targets. -/
def degree (col : EdgeIdx) : NodeVal :=
  Host.scatterAdd (F := Ideal) scatter_S100000_S740000x1_S740000_n_0_0_1 (broadcastInDim S100000 ![] bcast_S_S100000 (constant (F := Ideal) S_ .f32 0x00000000#32)) (broadcastInDim S740000x1 ![0] bcast_S740000_S740000x1_0 col) (broadcastInDim S740000 ![] bcast_S_S740000 (constant (F := Ideal) S_ .f32 0x3F800000#32))

/-- The weight of each node: the inverse square root of its degree taken of at least one, where the degree is
    positive; zero elsewhere. -/
def nodeWeight (col : EdgeIdx) : NodeVal :=
  select (cmpf (F := Ideal) .ogt (degree col) (broadcastInDim S100000 ![] bcast_S_S100000 (constant (F := Ideal) S_ .f32 0x00000000#32))) (Host.rsqrt (F := Ideal) (maximumf (F := Ideal) (degree col) (broadcastInDim S100000 ![] bcast_S_S100000 (constant (F := Ideal) S_ .f32 0x3F800000#32)))) (broadcastInDim S100000 ![] bcast_S_S100000 (id (constant (F := Ideal) S_ .f32 0x00000000#32)))

/-- The weight of each edge: the product of the weights of its source and of its target. -/
def edgeWeight (row col : EdgeIdx) : EdgeVal :=
  mulf (F := Ideal) (φ := .f32) (Host.gather gather_S100000_S740000x1_S740000_n_0_n_n_0_1_1 (nodeWeight col) (broadcastInDim S740000x1 ![0] bcast_S740000_S740000x1_0 (wrap row))) (Host.gather gather_S100000_S740000x1_S740000_n_0_n_n_0_1_1 (nodeWeight col) (broadcastInDim S740000x1 ![0] bcast_S740000_S740000x1_0 (wrap col)))

/-- One round of message passing: each edge carries its source's row of h, scaled by the edge's weight, into its
    target's row, the rows starting from zero. -/
def round (row col : EdgeIdx) (w : EdgeVal) (h : Mat 100000 128) : Mat 100000 128 :=
  Host.scatterAdd (F := Ideal) scatter_S100000x128_S740000x1_S740000x128_1_0_0_1 (broadcastInDim S100000x128 ![] bcast_S_S100000x128 (constant (F := Ideal) S_ .f32 0x00000000#32)) (broadcastInDim S740000x1 ![0] bcast_S740000_S740000x1_0 col) (mulf (F := Ideal) (Host.gather gather_S100000x128_S740000x1_S740000x128_1_0_n_n_0_1_1128 h (broadcastInDim S740000x1 ![0] bcast_S740000_S740000x1_0 (wrap row))) (broadcastInDim S740000x128 ![0, 1] bcast_S740000x1_S740000x128_0_1 (broadcastInDim S740000x1 ![0] bcast_S740000_S740000x1_0 w)))

/-- The two-layer network on the whole arrays: round (clamp (round (X · W1) + b1) · W2) + b2. -/
def network (x : Mat 100000 128) (e : EdgeList) (w1 : Mat 128 128) (b1 : Mat 1 128) (w2 : Mat 128 128) (b2 : Mat 1 128) :
    Mat 100000 128 :=
  addRow (round (edgeRow e) (edgeCol e) (edgeWeight (edgeRow e) (edgeCol e))
    (matProd (clamp (addRow (round (edgeRow e) (edgeCol e) (edgeWeight (edgeRow e) (edgeCol e)) (matProd x w1)) b1)) w2)) b2

end Cert.KernelIdeal.Graph

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.HostStretches.lean ====
/-
  What each stretch of host operations leaves, from whatever contents it starts at.

  The three opening stretches build, from the edge list alone, the sources and targets with self loops (`edgeRow`,
  `edgeCol`) and the edge weights (`edgeWeight`): they read no float argument and write no argument.

  Each of the two later stretches is one round of message passing on the product its region has just written, with the
  sources, targets and weights the opening stretches left, followed by the layer's bias vector re-laid as one row. It
  writes neither the edge data nor an argument.

  Every statement is about an arbitrary valuation F of the buffers, so none of them opens what an earlier stretch or a
  region left.
-/
import proofs.«173735_j42872363549056_1_alg».proof.Proof.Gen.KernelIdeal.Launch
import proofs.«173735_j42872363549056_1_alg».proof.Proof.HostOps
import proofs.«173735_j42872363549056_1_alg».proof.Proof.LibTypedRef
import Idealize.ShloMosaic.Lib.StableHlo.Run

set_option maxRecDepth 16384

noncomputable section

namespace Cert.KernelIdeal.Stretches

open Cert.KernelIdeal Cert.KernelIdeal.Gen Cert.KernelIdeal.Graph
open Idealize.ShloMosaic Idealize.ShloMosaic.TcCoe Idealize.SL.Sem Idealize.ShloMosaic.StableHlo Cert.Layers

variable (F : Valuation τ sig (Elt Ideal))

/-! ## The three opening stretches -/

/-- They leave the sources with self loops where the later stretches read them. -/
theorem opening_row : StableHlo.after (hostOps0_2 (F := Ideal)) (StableHlo.after (hostOps0_1 (F := Ideal)) (StableHlo.after (hostOps0 (F := Ideal)) F)) (Proc.devRef .tc main_v3) = edgeRow (F (Proc.devRef .tc main_arg1)) := by
  dsimp only [hostOps0, hostOps0_1, hostOps0_2]
  after_results_simp
  rfl

/-- They leave the targets with self loops where the later stretches read them. -/
theorem opening_col : StableHlo.after (hostOps0_2 (F := Ideal)) (StableHlo.after (hostOps0_1 (F := Ideal)) (StableHlo.after (hostOps0 (F := Ideal)) F)) (Proc.devRef .tc main_v6) = edgeCol (F (Proc.devRef .tc main_arg1)) := by
  dsimp only [hostOps0, hostOps0_1, hostOps0_2]
  after_results_simp
  rfl

/-! The edge weights are built across all three stretches: the first counts the degrees and takes their inverse square
    roots, the second (the outlined `where`) keeps those where the degree is positive and puts zero elsewhere, the third
    gathers the two ends' weights along each edge and multiplies them. Each stretch is read from whatever it starts at. -/

/-- The first stretch leaves the sources with self loops. -/
theorem first_row : StableHlo.after (hostOps0 (F := Ideal)) F (Proc.devRef .tc main_v3) = edgeRow (F (Proc.devRef .tc main_arg1)) := by
  dsimp only [hostOps0]
  after_results_simp
  rfl

/-- The first stretch leaves the targets with self loops. -/
theorem first_col : StableHlo.after (hostOps0 (F := Ideal)) F (Proc.devRef .tc main_v6) = edgeCol (F (Proc.devRef .tc main_arg1)) := by
  dsimp only [hostOps0]
  after_results_simp
  rfl

/-- The first stretch leaves, per node, whether its degree is positive. -/
theorem first_positive : StableHlo.after (hostOps0 (F := Ideal)) F (Proc.devRef .tc main_v12)
    = cmpf (F := Ideal) .ogt (degree (edgeCol (F (Proc.devRef .tc main_arg1)))) (broadcastInDim S100000 ![] bcast_S_S100000 (constant (F := Ideal) S_ .f32 0x00000000#32)) := by
  dsimp only [hostOps0]
  after_results_simp
  rfl

/-- The first stretch leaves, per node, the inverse square root of its degree taken of at least one. -/
theorem first_rsqrt : StableHlo.after (hostOps0 (F := Ideal)) F (Proc.devRef .tc main_v15)
    = Host.rsqrt (F := Ideal) (maximumf (F := Ideal) (degree (edgeCol (F (Proc.devRef .tc main_arg1)))) (broadcastInDim S100000 ![] bcast_S_S100000 (constant (F := Ideal) S_ .f32 0x3F800000#32))) := by
  dsimp only [hostOps0]
  after_results_simp
  rfl

/-- The first stretch leaves the scalar zero the `where` puts at nodes of degree zero. -/
theorem first_zero : StableHlo.after (hostOps0 (F := Ideal)) F (Proc.devRef .tc main_cst_3) = constant (F := Ideal) S_ .f32 0x00000000#32 := by
  dsimp only [hostOps0]
  after_results_simp

section Later
variable (G : Valuation τ sig (Elt Ideal))

/-- The `where` stretch: the second operand where the first holds, the broadcast scalar elsewhere. Its operations are
    over typed references, whose two transports cancel. -/
theorem where_select : StableHlo.after (hostOps0_1 (F := Ideal)) G (Proc.devRef .tc main_v16)
    = select (G (Proc.devRef .tc main_v12)) (G (Proc.devRef .tc main_v15))
        (broadcastInDim S100000 ![] bcast_S_S100000 (id (G (Proc.devRef .tc main_cst_3)))) := by
  dsimp only [hostOps0_1]
  after_results_simp
  simp only [Cert.Lib.ofBuf_toBuf]
  rfl

/-- The `where` stretch does not write the sources. -/
theorem where_keeps_row : StableHlo.after (hostOps0_1 (F := Ideal)) G (Proc.devRef .tc main_v3) = G (Proc.devRef .tc main_v3) := by
  dsimp only [hostOps0_1]
  after_results_simp

/-- The `where` stretch does not write the targets. -/
theorem where_keeps_col : StableHlo.after (hostOps0_1 (F := Ideal)) G (Proc.devRef .tc main_v6) = G (Proc.devRef .tc main_v6) := by
  dsimp only [hostOps0_1]
  after_results_simp

/-- The third stretch: along each edge, the product of the node weights at its wrapped source and at its wrapped target. -/
theorem third_weight : StableHlo.after (hostOps0_2 (F := Ideal)) G (Proc.devRef .tc main_v31)
    = mulf (F := Ideal) (φ := .f32)
        (Host.gather gather_S100000_S740000x1_S740000_n_0_n_n_0_1_1 (G (Proc.devRef .tc main_v16))
          (broadcastInDim S740000x1 ![0] bcast_S740000_S740000x1_0 (wrap (G (Proc.devRef .tc main_v3)))))
        (Host.gather gather_S100000_S740000x1_S740000_n_0_n_n_0_1_1 (G (Proc.devRef .tc main_v16))
          (broadcastInDim S740000x1 ![0] bcast_S740000_S740000x1_0 (wrap (G (Proc.devRef .tc main_v6))))) := by
  dsimp only [hostOps0_2]
  after_results_simp
  rfl

end Later

/-- Together the three stretches leave the edge weights where the later stretches read them. -/
theorem opening_weight : StableHlo.after (hostOps0_2 (F := Ideal)) (StableHlo.after (hostOps0_1 (F := Ideal)) (StableHlo.after (hostOps0 (F := Ideal)) F)) (Proc.devRef .tc main_v31)
    = edgeWeight (edgeRow (F (Proc.devRef .tc main_arg1))) (edgeCol (F (Proc.devRef .tc main_arg1))) := by
  rw [third_weight, where_select, where_keeps_row, where_keeps_col, first_positive, first_rsqrt, first_zero, first_row, first_col]
  rfl

/-- The three opening stretches write none of the argument arrays. -/
theorem opening_keeps_arg0 : StableHlo.after (hostOps0_2 (F := Ideal)) (StableHlo.after (hostOps0_1 (F := Ideal)) (StableHlo.after (hostOps0 (F := Ideal)) F)) (Proc.devRef .tc main_arg0) = F (Proc.devRef .tc main_arg0) := by
  dsimp only [hostOps0, hostOps0_1, hostOps0_2]
  after_results_simp

/-- The three opening stretches write none of the argument arrays. -/
theorem opening_keeps_arg2 : StableHlo.after (hostOps0_2 (F := Ideal)) (StableHlo.after (hostOps0_1 (F := Ideal)) (StableHlo.after (hostOps0 (F := Ideal)) F)) (Proc.devRef .tc main_arg2) = F (Proc.devRef .tc main_arg2) := by
  dsimp only [hostOps0, hostOps0_1, hostOps0_2]
  after_results_simp

/-- The three opening stretches write none of the argument arrays. -/
theorem opening_keeps_arg3 : StableHlo.after (hostOps0_2 (F := Ideal)) (StableHlo.after (hostOps0_1 (F := Ideal)) (StableHlo.after (hostOps0 (F := Ideal)) F)) (Proc.devRef .tc main_arg3) = F (Proc.devRef .tc main_arg3) := by
  dsimp only [hostOps0, hostOps0_1, hostOps0_2]
  after_results_simp

/-- The three opening stretches write none of the argument arrays. -/
theorem opening_keeps_arg4 : StableHlo.after (hostOps0_2 (F := Ideal)) (StableHlo.after (hostOps0_1 (F := Ideal)) (StableHlo.after (hostOps0 (F := Ideal)) F)) (Proc.devRef .tc main_arg4) = F (Proc.devRef .tc main_arg4) := by
  dsimp only [hostOps0, hostOps0_1, hostOps0_2]
  after_results_simp

/-- The three opening stretches write none of the argument arrays. -/
theorem opening_keeps_arg5 : StableHlo.after (hostOps0_2 (F := Ideal)) (StableHlo.after (hostOps0_1 (F := Ideal)) (StableHlo.after (hostOps0 (F := Ideal)) F)) (Proc.devRef .tc main_arg5) = F (Proc.devRef .tc main_arg5) := by
  dsimp only [hostOps0, hostOps0_1, hostOps0_2]
  after_results_simp

/-! ## The first layer's stretch -/

/-- One round of message passing on the first product. -/
theorem first_round : StableHlo.after (hostOps1 (F := Ideal)) F (Proc.devRef .tc main_v45)
    = round (F (Proc.devRef .tc main_v3)) (F (Proc.devRef .tc main_v6)) (F (Proc.devRef .tc main_v31)) (F (Proc.devRef .tc main_v32)) := by
  dsimp only [hostOps1]
  after_results_simp
  rfl

/-- The first bias vector re-laid as one row. -/
theorem first_bias : StableHlo.after (hostOps1 (F := Ideal)) F (Proc.devRef .tc main_v46)
    = shapeCast S1x128 (F (Proc.devRef .tc main_arg3)) shapeCasts_S128_S1x128 := by
  dsimp only [hostOps1]
  after_results_simp
  rfl

/-- The first layer's stretch does not write the sources. -/
theorem first_keeps_row : StableHlo.after (hostOps1 (F := Ideal)) F (Proc.devRef .tc main_v3) = F (Proc.devRef .tc main_v3) := by
  dsimp only [hostOps1]
  after_results_simp

/-- The first layer's stretch does not write the targets. -/
theorem first_keeps_col : StableHlo.after (hostOps1 (F := Ideal)) F (Proc.devRef .tc main_v6) = F (Proc.devRef .tc main_v6) := by
  dsimp only [hostOps1]
  after_results_simp

/-- The first layer's stretch does not write the edge weights. -/
theorem first_keeps_weight : StableHlo.after (hostOps1 (F := Ideal)) F (Proc.devRef .tc main_v31) = F (Proc.devRef .tc main_v31) := by
  dsimp only [hostOps1]
  after_results_simp

/-- The first layer's stretch does not write the second weight matrix. -/
theorem first_keeps_arg4 : StableHlo.after (hostOps1 (F := Ideal)) F (Proc.devRef .tc main_arg4) = F (Proc.devRef .tc main_arg4) := by
  dsimp only [hostOps1]
  after_results_simp

/-- The first layer's stretch does not write the second bias vector. -/
theorem first_keeps_arg5 : StableHlo.after (hostOps1 (F := Ideal)) F (Proc.devRef .tc main_arg5) = F (Proc.devRef .tc main_arg5) := by
  dsimp only [hostOps1]
  after_results_simp

/-! ## The second layer's stretch -/

/-- One round of message passing on the second product. -/
theorem second_round : StableHlo.after (hostOps3 (F := Ideal)) F (Proc.devRef .tc main_v61)
    = round (F (Proc.devRef .tc main_v3)) (F (Proc.devRef .tc main_v6)) (F (Proc.devRef .tc main_v31)) (F (Proc.devRef .tc main_v48)) := by
  dsimp only [hostOps3]
  after_results_simp
  rfl

/-- The second bias vector re-laid as one row. -/
theorem second_bias : StableHlo.after (hostOps3 (F := Ideal)) F (Proc.devRef .tc main_v62)
    = shapeCast S1x128 (F (Proc.devRef .tc main_arg5)) shapeCasts_S128_S1x128 := by
  dsimp only [hostOps3]
  after_results_simp
  rfl

end Cert.KernelIdeal.Stretches

end
-- ==== Proof.KernelRun.lean ====
/-
  What the kernel's program ends with.

  The program is nine stretches in a row: three stretches of host operations (the edge list with self loops, the degrees
  and their inverse square roots, the per-edge weights), the first product's region, a stretch of host operations (gather,
  scale, scatter-add, the bias re-laid as a row), the first bias region, the second product's region, another such stretch,
  and the second bias region. Its frame run carries, from stretch to stretch, the contents of every buffer that is not
  scoped to a region: after the last region they are the contents called `W9` — each host stretch applied to what the
  previous one left, each region's arrays at what its write-backs leave.

  So every weakly fair execution terminates without a fault in a state whose result buffer holds `W9` at that buffer and
  whose six argument arrays are as launched. The other modules say which function of the arguments `W9` holds there.
-/
import proofs.«173735_j42872363549056_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores terminates, nothing
    faulting, and every final state has the result buffer at the last boundary's contents and the argument arrays as
    launched: the launch over the nine segments, the last thread state read against the final state. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.KernelValue.lean ====
/-
  The kernel's result is the two-layer network of its arguments.

  Reading the run backwards from the result buffer, each buffer's contents at a boundary are what the stretch or region
  that last wrote it left, and a buffer nothing in between wrote holds what it held before:

    the result          = the last region's row bias on (second round, second bias row)
    second round        = one round of message passing on the second product, with the edge data of the opening stretches
    second product      = the third region's product of the hidden features with the second weights
    hidden features     = the second region's clamp of the row bias on (first round, first bias row)
    first round         = one round of message passing on the first product, with the same edge data
    first product       = the first region's product of the input features with the first weights

  The edge data (sources, targets, edge weights) are written by the opening stretches and by nothing after them; the
  arguments are written by nothing at all. Substituting upwards gives `network` of the six arguments' launch contents,
  each bias vector read as a one-row matrix.
-/
import proofs.«173735_j42872363549056_1_alg».proof.Proof.Gen.KernelIdeal.Frame
import proofs.«173735_j42872363549056_1_alg».proof.Proof.FirstProduct
import proofs.«173735_j42872363549056_1_alg».proof.Proof.FirstBias
import proofs.«173735_j42872363549056_1_alg».proof.Proof.SecondProduct
import proofs.«173735_j42872363549056_1_alg».proof.Proof.SecondBias
import proofs.«173735_j42872363549056_1_alg».proof.Proof.HostStretches
import proofs.«173735_j42872363549056_1_alg».proof.Proof.KernelRun

set_option maxRecDepth 16384

noncomputable section

namespace Cert.KernelIdeal.Chain

open Cert.KernelIdeal Cert.KernelIdeal.Gen Cert.KernelIdeal.Graph Cert.KernelIdeal.Stretches
open Idealize.ShloMosaic Idealize.ShloMosaic.TcCoe Idealize.SL.Sem Cert.Layers Cert.LibMatProd

variable (m : (ℓ : Loc nD τ sig) → Buf (Elt Ideal) ℓ) (ρ : Dev nD → PrngReg) (c : Dev nD)

/-- What a boundary still holds of the opening stretches' work and of the second bias vector: the sources, the targets
    and the edge weights as functions of the edge list, and the bias as launched. -/
structure Held (X : Valuation τ sig (Elt Ideal)) : Prop where
  row : X (Proc.devRef .tc main_v3) = edgeRow (m ((c : Thread nD τ).loc main_arg1))
  col : X (Proc.devRef .tc main_v6) = edgeCol (m ((c : Thread nD τ).loc main_arg1))
  weight : X (Proc.devRef .tc main_v31) = edgeWeight (edgeRow (m ((c : Thread nD τ).loc main_arg1))) (edgeCol (m ((c : Thread nD τ).loc main_arg1)))
  bias2 : X (Proc.devRef .tc main_arg5) = m ((c : Thread nD τ).loc main_arg5)

/-- Held when the first region is entered: the opening stretches have just written the edge data. -/
theorem held3 : Held m c (W3 m ρ c) :=
  ⟨opening_row (W0 m ρ c), opening_col (W0 m ρ c), opening_weight (W0 m ρ c), opening_keeps_arg5 (W0 m ρ c)⟩

/-- Held when the first region is left: its arrays are the features, the first weights and the first product. -/
theorem held4 : Held m c (W4 m ρ c) :=
  ⟨(W4_of_ne m ρ c main_v3 (by decide)).trans (held3 m ρ c).row,
   (W4_of_ne m ρ c main_v6 (by decide)).trans (held3 m ρ c).col,
   (W4_of_ne m ρ c main_v31 (by decide)).trans (held3 m ρ c).weight,
   (W4_of_ne m ρ c main_arg5 (by decide)).trans (held3 m ρ c).bias2⟩

/-- Held after the first layer's stretch. -/
theorem held5 : Held m c (W5 m ρ c) :=
  ⟨(first_keeps_row (W4 m ρ c)).trans (held4 m ρ c).row,
   (first_keeps_col (W4 m ρ c)).trans (held4 m ρ c).col,
   (first_keeps_weight (W4 m ρ c)).trans (held4 m ρ c).weight,
   (first_keeps_arg5 (W4 m ρ c)).trans (held4 m ρ c).bias2⟩

/-- Held when the second region is left. -/
theorem held6 : Held m c (W6 m ρ c) :=
  ⟨(W6_of_ne m ρ c main_v3 (by decide)).trans (held5 m ρ c).row,
   (W6_of_ne m ρ c main_v6 (by decide)).trans (held5 m ρ c).col,
   (W6_of_ne m ρ c main_v31 (by decide)).trans (held5 m ρ c).weight,
   (W6_of_ne m ρ c main_arg5 (by decide)).trans (held5 m ρ c).bias2⟩

/-- Held when the third region is left. -/
theorem held7 : Held m c (W7 m ρ c) :=
  ⟨(W7_of_ne m ρ c main_v3 (by decide)).trans (held6 m ρ c).row,
   (W7_of_ne m ρ c main_v6 (by decide)).trans (held6 m ρ c).col,
   (W7_of_ne m ρ c main_v31 (by decide)).trans (held6 m ρ c).weight,
   (W7_of_ne m ρ c main_arg5 (by decide)).trans (held6 m ρ c).bias2⟩

/-- The first bias vector is as launched when the first layer's stretch reads it. -/
theorem bias1_at4 : W4 m ρ c (Proc.devRef .tc main_arg3) = m ((c : Thread nD τ).loc main_arg3) :=
  (W4_of_ne m ρ c main_arg3 (by decide)).trans (opening_keeps_arg3 (W0 m ρ c))

/-- The second weight matrix is as launched when the third region reads it. -/
theorem weights2_at6 : W6 m ρ c (Proc.devRef .tc main_arg4) = m ((c : Thread nD τ).loc main_arg4) :=
  (W6_of_ne m ρ c main_arg4 (by decide)).trans ((first_keeps_arg4 (W4 m ρ c)).trans
    ((W4_of_ne m ρ c main_arg4 (by decide)).trans (opening_keeps_arg4 (W0 m ρ c))))

/-- The first region leaves the product of the input features with the first weights. -/
theorem product1 : W4 m ρ c (Proc.devRef .tc main_v32) = matProd (m ((c : Thread nD τ).loc main_arg0) : Mat 100000 128) (m ((c : Thread nD τ).loc main_arg2) : Mat 128 128) :=
  ((W4_arr m ρ c 2).trans (FirstProduct.array_eq (V3 m ρ) c)).trans
    (congrArg₂ (fun (a : Mat 100000 128) (b : Mat 128 128) => matProd a b) (opening_keeps_arg0 (W0 m ρ c)) (opening_keeps_arg2 (W0 m ρ c)))

/-- The first layer's stretch leaves one round of message passing on that product. -/
theorem round1 : W5 m ρ c (Proc.devRef .tc main_v45)
    = round (edgeRow (m ((c : Thread nD τ).loc main_arg1))) (edgeCol (m ((c : Thread nD τ).loc main_arg1))) (edgeWeight (edgeRow (m ((c : Thread nD τ).loc main_arg1))) (edgeCol (m ((c : Thread nD τ).loc main_arg1)))) (matProd (m ((c : Thread nD τ).loc main_arg0) : Mat 100000 128) (m ((c : Thread nD τ).loc main_arg2) : Mat 128 128)) := by
  refine (first_round (W4 m ρ c)).trans ?_
  rw [(held4 m ρ c).row, (held4 m ρ c).col, (held4 m ρ c).weight, product1 m ρ c]

/-- … and the first bias vector as a one-row matrix. -/
theorem biasRow1 : W5 m ρ c (Proc.devRef .tc main_v46) = rowOf (m ((c : Thread nD τ).loc main_arg3)) := by
  refine (first_bias (W4 m ρ c)).trans ?_
  rw [bias1_at4 m ρ c]
  exact reshape_row _ _

/-- The second region leaves the hidden features: the clamp of the first round plus the first bias on every row. -/
theorem hidden : W6 m ρ c (Proc.devRef .tc main_v47) = clamp (addRow (round (edgeRow (m ((c : Thread nD τ).loc main_arg1))) (edgeCol (m ((c : Thread nD τ).loc main_arg1))) (edgeWeight (edgeRow (m ((c : Thread nD τ).loc main_arg1))) (edgeCol (m ((c : Thread nD τ).loc main_arg1)))) (matProd (m ((c : Thread nD τ).loc main_arg0) : Mat 100000 128) (m ((c : Thread nD τ).loc main_arg2) : Mat 128 128))) (rowOf (m ((c : Thread nD τ).loc main_arg3)))) := by
  refine ((W6_arr m ρ c 2).trans (FirstBias.array_eq (V5 m ρ) c)).trans ?_
  show clamp (addRow (W5 m ρ c (Proc.devRef .tc main_v45)) (W5 m ρ c (Proc.devRef .tc main_v46))) = _
  rw [round1 m ρ c, biasRow1 m ρ c]

/-- The third region leaves the product of the hidden features with the second weights. -/
theorem product2 : W7 m ρ c (Proc.devRef .tc main_v48) = matProd (clamp (addRow (round (edgeRow (m ((c : Thread nD τ).loc main_arg1))) (edgeCol (m ((c : Thread nD τ).loc main_arg1))) (edgeWeight (edgeRow (m ((c : Thread nD τ).loc main_arg1))) (edgeCol (m ((c : Thread nD τ).loc main_arg1)))) (matProd (m ((c : Thread nD τ).loc main_arg0) : Mat 100000 128) (m ((c : Thread nD τ).loc main_arg2) : Mat 128 128))) (rowOf (m ((c : Thread nD τ).loc main_arg3))))) (m ((c : Thread nD τ).loc main_arg4) : Mat 128 128) := by
  refine ((W7_arr m ρ c 2).trans (SecondProduct.array_eq (V6 m ρ) c)).trans ?_
  show matProd (W6 m ρ c (Proc.devRef .tc main_v47)) (W6 m ρ c (Proc.devRef .tc main_arg4)) = _
  rw [hidden m ρ c, weights2_at6 m ρ c]

/-- The second layer's stretch leaves one round of message passing on that product. -/
theorem round2 : W8 m ρ c (Proc.devRef .tc main_v61)
    = round (edgeRow (m ((c : Thread nD τ).loc main_arg1))) (edgeCol (m ((c : Thread nD τ).loc main_arg1))) (edgeWeight (edgeRow (m ((c : Thread nD τ).loc main_arg1))) (edgeCol (m ((c : Thread nD τ).loc main_arg1)))) (matProd (clamp (addRow (round (edgeRow (m ((c : Thread nD τ).loc main_arg1))) (edgeCol (m ((c : Thread nD τ).loc main_arg1))) (edgeWeight (edgeRow (m ((c : Thread nD τ).loc main_arg1))) (edgeCol (m ((c : Thread nD τ).loc main_arg1)))) (matProd (m ((c : Thread nD τ).loc main_arg0) : Mat 100000 128) (m ((c : Thread nD τ).loc main_arg2) : Mat 128 128))) (rowOf (m ((c : Thread nD τ).loc main_arg3))))) (m ((c : Thread nD τ).loc main_arg4) : Mat 128 128)) := by
  refine (second_round (W7 m ρ c)).trans ?_
  rw [(held7 m ρ c).row, (held7 m ρ c).col, (held7 m ρ c).weight, product2 m ρ c]

/-- … and the second bias vector as a one-row matrix. -/
theorem biasRow2 : W8 m ρ c (Proc.devRef .tc main_v62) = rowOf (m ((c : Thread nD τ).loc main_arg5)) := by
  refine (second_bias (W7 m ρ c)).trans ?_
  rw [(held7 m ρ c).bias2]
  exact reshape_row _ _

/-- The last region leaves, in the result buffer, the network of the arguments as launched. -/
theorem result : W9 m ρ c (Proc.devRef .tc main_v63) = network (m ((c : Thread nD τ).loc main_arg0)) (m ((c : Thread nD τ).loc main_arg1)) (m ((c : Thread nD τ).loc main_arg2)) (rowOf (m ((c : Thread nD τ).loc main_arg3))) (m ((c : Thread nD τ).loc main_arg4)) (rowOf (m ((c : Thread nD τ).loc main_arg5))) := by
  refine ((W9_arr m ρ c 2).trans (SecondBias.array_eq (V8 m ρ) c)).trans ?_
  show addRow (W8 m ρ c (Proc.devRef .tc main_v61)) (W8 m ρ c (Proc.devRef .tc main_v62)) = _
  rw [round2 m ρ c, biasRow2 m ρ c]
  rfl

/-- Every weakly fair execution of the kernel's program terminates with its result at the network of its arguments'
    launch contents and the arguments unchanged. -/
theorem run : θ_run defs (onTc (τ := τ) (main (F := Ideal))) ⟨m, fun _ => 0, ρ⟩ fun r => ∀ c : Dev nD,
      r.2.mem ((c.tc : Thread nD τ).loc main_v63) = network (m ((c : Thread nD τ).loc main_arg0)) (m ((c : Thread nD τ).loc main_arg1)) (m ((c : Thread nD τ).loc main_arg2)) (rowOf (m ((c : Thread nD τ).loc main_arg3))) (m ((c : Thread nD τ).loc main_arg4)) (rowOf (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result m ρ c), (h c).2⟩)
    (Cert.KernelIdeal.RunValue.run (F := Ideal) m ρ)

end Cert.KernelIdeal.Chain

end
-- ==== Proof.ReferenceValue.lean ====
/-
  The reference program computes the two-layer network.

  The reference is one line of host operations. Its result term spells the network as

      round (max (round (X ·· W1) + bb b1, 0) ·· W2) + bb b2

  where ·· is the host's contraction of the left operand's second axis with the right operand's first, bb b is the bias
  vector broadcast to one row and then down the 100000 rows, the maximum is against a broadcast scalar zero, and round
  is one round of message passing over the edge list with self loops — the same gathers, products and scatter-adds,
  over the same edge weights, as on the kernel's host side. (The reference builds the edge weights once per layer; both
  times they are the same function of the edge list.)

  Entry by entry the contraction is the matrix product, the two-step broadcast added is the bias added to every row, and
  the maximum against the broadcast zero is the clamp below at zero. So the reference's result is `network` of its
  arguments, the biases read as one-row matrices.
-/
import proofs.«173735_j42872363549056_1_alg».proof.Proof.ReferenceRun
import proofs.«173735_j42872363549056_1_alg».proof.Proof.HostOps

set_option maxRecDepth 16384

noncomputable section

namespace Cert.ReferenceIdeal.RefValue

open Cert.ReferenceIdeal Cert.ReferenceIdeal.Gen Idealize.ShloMosaic Idealize.ShloMosaic.TcCoe Idealize.SL.Sem
open Cert.Layers Cert.LibMatProd Cert.KernelIdeal.Graph

/-- A bias vector: one exact value per feature. -/
abbrev Bias : Type := (⟨1, ![128]⟩ : Shape).Idx → EReal

/-- The network in the reference's own spelling: host contractions, two-step bias broadcasts, a maximum against a
    broadcast zero, around the two rounds of message passing. -/
def hostNetwork (x : Mat 100000 128) (e : EdgeList) (w1 : Mat 128 128) (b1 : Bias) (w2 : Mat 128 128) (b2 : Bias) : Mat 100000 128 :=
  addf (F := Ideal) (φ := .f32) (round (edgeRow e) (edgeCol e) (edgeWeight (edgeRow e) (edgeCol e))
      (Host.dotGeneral (F := Ideal) (φ₁ := .f32) (φ₂ := .f32) dot_S100000x128_S128x128_S100000x128_1_0_0_1_n_n none
        (maximumf (F := Ideal) (φ := .f32)
          (addf (F := Ideal) (φ := .f32) (round (edgeRow e) (edgeCol e) (edgeWeight (edgeRow e) (edgeCol e))
              (Host.dotGeneral (F := Ideal) (φ₁ := .f32) (φ₂ := .f32) dot_S100000x128_S128x128_S100000x128_1_0_0_1_n_n none x w1))
            (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32)))
        w2))
    (broadcastInDim S100000x128 ![0, 1] bcast_S1x128_S100000x128_0_1 (broadcastInDim S1x128 ![1] bcast_S128_S1x128_1 b2))

/-- The run's result term is that spelling of the launch contents of the six arguments. -/
theorem res_eq (m : (ℓ : Loc nD τ sig) → Buf (Elt Ideal) ℓ) (c : Dev nD) :
    Cert.ReferenceIdeal.RunP.res_main_v81 (F := Ideal) m c
      = hostNetwork (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v81
  rfl

/-- The reference's spelling denotes the network: each contraction a matrix product, each two-step broadcast added a
    bias row added, the maximum against zero the clamp. -/
theorem hostNetwork_eq (x : Mat 100000 128) (e : EdgeList) (w1 : Mat 128 128) (b1 : Bias) (w2 : Mat 128 128) (b2 : Bias) :
    hostNetwork x e w1 b1 w2 b2 = network x e w1 (rowOf b1) w2 (rowOf b2) := by
  unfold hostNetwork network
  rw [host_addRow, host_clamp, host_addRow,
    host_prod dot_S100000x128_S128x128_S100000x128_1_0_0_1_n_n rfl rfl rfl rfl rfl rfl,
    host_prod dot_S100000x128_S128x128_S100000x128_1_0_0_1_n_n rfl rfl rfl rfl rfl rfl]

/-- Every weakly fair execution of the reference terminates with its result at the network of its arguments' launch
    contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81)
        = network (m ((c.tc : Thread nD τ).loc main_arg0)) (m ((c.tc : Thread nD τ).loc main_arg1))
            (m ((c.tc : Thread nD τ).loc main_arg2)) (rowOf (m ((c.tc : Thread nD τ).loc main_arg3)))
            (m ((c.tc : Thread nD τ).loc main_arg4)) (rowOf (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((res_eq m c).trans (hostNetwork_eq _ _ _ _ _ _)), (h c).2⟩)
    (Cert.ReferenceIdeal.RunP.run (F := Ideal) m ρ)

end Cert.ReferenceIdeal.RefValue

end
-- ==== Proof.lean ====
/-
  A two-layer graph convolution with self loops and symmetric normalization, on 100000 nodes with 128 features and
  640000 given edges: the kernel's program against its reference, at the exact extended reals.

  Both programs build the same edge data on the host — the sources and targets with a self loop per node, the degree of
  each node, its weight (the inverse square root of the degree where the degree is positive, zero elsewhere), and per
  edge the product of its two ends' weights — and both run, per layer, a product with the layer's weight matrix, one round
  of message passing (gather the source's row, scale by the edge's weight, add into the target's row), and the layer's
  bias on every row, with a clamp below at zero after the first layer.

  They differ only in how the dense stages are written. The kernel runs each product in a region that walks the left
  factor in ten bands of 10000 rows, narrowing both factors to bf16 before a product into a zero accumulator; and it runs
  each bias stage (with the clamp, in the first layer) in a region that walks the aggregated features in the same bands,
  the bias re-laid as one row and repeated down the band. The reference writes a contraction, a two-step broadcast of
  the bias, and a maximum against a broadcast zero.

  At the exact extended reals narrowing is the identity, a product into a zero accumulator is the matrix product, and a
  contraction of the second axis with the first is the matrix product too; the product, the row bias and the clamp all
  act row by row, so ten bands of rows make the whole array. Hence both programs end with the one function `network` of
  their arguments (Proof/HostOps.lean): no property of the inputs is used, and in particular not their finiteness.

  The three frames are the two generated frame certificates and the reference's run with its result dropped; the ideal
  pass rewrote nothing, so the idealization claim is trivial; the value claim is the two runs side by side.
-/
import proofs.«173735_j42872363549056_1_alg».proof.Defs
import proofs.«173735_j42872363549056_1_alg».proof.Proof.Gen.Kernel
import proofs.«173735_j42872363549056_1_alg».proof.Proof.Gen.Kernel.Skeleton
import proofs.«173735_j42872363549056_1_alg».proof.Proof.Gen.Kernel.Launch
import proofs.«173735_j42872363549056_1_alg».proof.Proof.Gen.Kernel.Points
import proofs.«173735_j42872363549056_1_alg».proof.Proof.Gen.Kernel.Frame
import proofs.«173735_j42872363549056_1_alg».proof.Proof.Gen.KernelIdeal
import proofs.«173735_j42872363549056_1_alg».proof.Proof.Gen.KernelIdeal.Skeleton
import proofs.«173735_j42872363549056_1_alg».proof.Proof.Gen.KernelIdeal.Launch
import proofs.«173735_j42872363549056_1_alg».proof.Proof.Gen.KernelIdeal.Points
import proofs.«173735_j42872363549056_1_alg».proof.Proof.Gen.KernelIdeal.Frame
import proofs.«173735_j42872363549056_1_alg».proof.Proof.Gen.ReferenceIdeal
import proofs.«173735_j42872363549056_1_alg».proof.Proof.Gen.Pre_finite_inputs
import proofs.«173735_j42872363549056_1_alg».proof.Proof.KernelValue
import proofs.«173735_j42872363549056_1_alg».proof.Proof.ReferenceValue
import Idealize.ShloMosaic.Adequacy
import Idealize.ShloMosaic.Init

noncomputable section

namespace Cert.Proof

open Idealize.ShloMosaic Idealize.SL.Sem

/-- The kernel's program as printed runs, and leaves its arguments as launched. -/
theorem frame_kernel : Cert.frame_Kernel := fun m ρ _ => Cert.Kernel.Gen.frame m ρ

/-- The kernel's program read at the exact extended reals runs, and leaves its arguments as launched. -/
theorem frame_kernelIdeal : Cert.frame_KernelIdeal := fun m ρ _ => Cert.KernelIdeal.Gen.frame m ρ

/-- The reference runs, and leaves its arguments as launched: its run, the result forgotten. -/
theorem frame_reference : Cert.frame_ReferenceIdeal := fun m ρ _ =>
  (θ_run Cert.ReferenceIdeal.defs _ _).mono (fun _ h c => (h c).2) (Cert.ReferenceIdeal.RefValue.run m ρ)

/-- The idealized kernel is the kernel's own text read at the exact extended reals: nothing was rewritten. -/
theorem preserves : Cert.preserves_Kernel_KernelIdeal := trivial

/-- From memories that agree on the six arguments both programs run to the end, and both results are the two-layer
    network of those arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
